-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x1024 : Shape := ⟨3, ![1024, 16, 1024]⟩
abbrev S16x1024x1024 : Shape := ⟨3, ![16, 1024, 1024]⟩
abbrev S16x1024 : Shape := ⟨2, ![16, 1024]⟩
abbrev S1024x1024 : Shape := ⟨2, ![1024, 1024]⟩
abbrev S_ : Shape := ⟨0, ![]⟩

class Facts : Prop where
  bcast_S_S1024x16x1024 : S_.BroadcastsInDim S1024x16x1024 (![] : Fin 0 → Fin S1024x16x1024.rank)
  reducesTo_S1024x16x1024_S_d0_1_2 : S1024x16x1024.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S1024x16x1024 .f32) (main_arg1 : FVec F S16x1024x1024 .f32) (main_arg2 : FVec F S16x1024x1024 .f32) (main_arg3 : FVec F S16x1024 .f32) (main_arg4 : FVec F S1024x1024 .f32) : IVec S_ 1 :=
  let main_v0 : FVec F S1024x16x1024 .f32 := Host.absf main_arg0
  let main_cst : FVec F S_ .f32 := constant S_ .f32 0x7F800000#32
  let main_v1 : FVec F S1024x16x1024 .f32 := broadcastInDim S1024x16x1024 ![] bcast_S_S1024x16x1024 main_cst
  let main_v2 : IVec S1024x16x1024 1 := cmpf .olt main_v0 main_v1
  let main_c : IVec S_ 1 := constantI S_ 1 1#1
  let main_v3 : IVec S_ 1 := (fun x v => Host.reduce IntOp.andi x v reducesTo_S1024x16x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S1024x16x1024 : Shape := ⟨3, ![1024, 16, 1024]⟩
abbrev S16x1024x1024 : Shape := ⟨3, ![16, 1024, 1024]⟩
abbrev S16x1024 : Shape := ⟨2, ![16, 1024]⟩
abbrev S1024x1024 : Shape := ⟨2, ![1024, 1024]⟩
abbrev S16x1x1024 : Shape := ⟨3, ![16, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S1024x16x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S16x1024x1024, .f32⟩
  | .hbm, ⟨6, _⟩ => ⟨S16x1024x1024, .bf16⟩
  | .hbm, ⟨7, _⟩ => ⟨S1024x1024, .f32⟩
  | .hbm, ⟨8, _⟩ => ⟨S1024x1024, .bf16⟩
  | .hbm, ⟨9, _⟩ => ⟨S16x1024x1024, .bf16⟩
  | .hbm, ⟨10, _⟩ => ⟨S16x1024x1024, .bf16⟩
  | .hbm, ⟨11, _⟩ => ⟨S16x1x1024, .f32⟩
  | .hbm, ⟨12, _⟩ => ⟨S16x1024x1024, .f32⟩
  | .hbm, ⟨13, _⟩ => ⟨S16x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | _, _ => ⟨S1024x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S1024x16x1024_S16x1024x1024_1_0_2 : S1024x16x1024.Transposes [1, 0, 2] S16x1024x1024
  bitsLt_bf16_f32 : FTy.bits .bf16 < FTy.bits .f32
  transposes_S1024x1024_S1024x1024_1_0 : S1024x1024.Transposes [1, 0] S1024x1024
  bcast_S16x1024_S16x1x1024_0_2 : S16x1024.BroadcastsInDim S16x1x1024 (![0, 2] : Fin 2 → Fin S16x1x1024.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .bf16 = 32 ∨ (Rect.block (s := S16x1024x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .bf16 = 32 ∨ (Rect.block (s := S16x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .bf16 = 32 ∨ (Rect.block (s := S16x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x1024x1024.size a
  hwx0_5 : ∀ i : grid0.Coords, EltTy.bits .f32 = 32 ∨ (Rect.block (s := S16x1024x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S16x1024x1024.size a
  hwx0_6 : ∀ i : grid0.Coords, EltTy.bits .f32 = 32 ∨ (Rect.block (s := S16x1024x1024) S1x512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x16x1024 : Shape := ⟨3, ![1024, 16, 1024]⟩
abbrev S16x1024x1024 : Shape := ⟨3, ![16, 1024, 1024]⟩
abbrev S16x1024 : Shape := ⟨2, ![16, 1024]⟩
abbrev S1024x1024 : Shape := ⟨2, ![1024, 1024]⟩
abbrev S1024x1024x16 : Shape := ⟨3, ![1024, 1024, 16]⟩
abbrev S16x1x1024 : Shape := ⟨3, ![16, 1, 1024]⟩
abbrev S_ : Shape := ⟨0, ![]⟩
abbrev S16x1024x1 : Shape := ⟨3, ![16, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x16x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S1024x1024x16, .f32⟩
  | .hbm, ⟨6, _⟩ => ⟨S16x1024x1024, .f32⟩
  | .hbm, ⟨7, _⟩ => ⟨S16x1024x1024, .f32⟩
  | .hbm, ⟨8, _⟩ => ⟨S16x1x1024, .f32⟩
  | .hbm, ⟨9, _⟩ => ⟨S16x1024x1024, .f32⟩
  | .hbm, ⟨10, _⟩ => ⟨S16x1024x1024, .f32⟩
  | .hbm, ⟨11, _⟩ => ⟨S_, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024x1, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S_, .f32⟩
  | .hbm, ⟨21, _⟩ => ⟨S16x1024, .f32⟩
  | .hbm, ⟨22, _⟩ => ⟨S16x1024x1, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | _, _ => ⟨S1024x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S1024x1024x16_S16x1024x1024_2_1_0 : S1024x1024x16.Transposes [2, 1, 0] S16x1024x1024
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S1024x1024_S1024x16x1024_S1024x1024x16_1_2_0_01_n_n_wf : DotDims.WF S1024x1024 S1024x16x1024 S1024x1024x16 [1] [2] [0] [0, 1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S1024x1024_S1024x16x1024_S1024x1024x16_1_2_0_01_n_n : DotDims S1024x1024 S1024x16x1024 S1024x1024x16 where
  lhsContracting := [1]
  rhsContracting := [2]
  lhsNonContracting := [0]
  rhsNonContracting := [0, 1]
  lhsBatch := []
  rhsBatch := []
  wf := dot_S1024x1024_S1024x16x1024_S1024x1024x16_1_2_0_01_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowMax.lean ====
/-
  The maximum along the rows of an [a, b] array, started from −∞, read at a row.

  A kernel takes it as a lane reduction whose accumulator is the word of −∞, the host as a one-operand reduce whose
  initial value is the scalar constant −∞. On the extended reals both are, at row p, the maximum over k of the entries
  (p, k), with −∞ (the bottom element) the maximum of no entries; the order in which the entries are met does not
  matter since the maximum is commutative and associative. Stated for any extents a and b.
-/
import Idealize.ShloMosaic.Lib.Pipeline.Value
import Idealize.ShloMosaic.Lib.ValueIdx
import Idealize.ShloMosaic.PureOps.Ideal.Laws
import proofs.«164714_j43679817400719_2_alg».proof.Proof.LibKeepdims

noncomputable section

namespace RowMax

open Idealize.ShloMosaic Idealize.ShloMosaic.ValueIdx

/-- The word of −∞ denotes the bottom of the extended reals. -/
theorem ofBits_neg_inf : Ideal.ofBits .f32 0xFF800000#32 = (⊥ : EReal) := by simp [Ideal.ofBits, Ideal.ieee]

/-- Reading the source along row p: lane k put back over p is the entry (p, k). -/
theorem comp_lift {a b : ℕ} (src : (⟨2, ![a, b]⟩ : Shape).Idx → EReal)
    (h : (⟨2, ![a, b]⟩ : Shape).Reduces [1] (⟨1, ![a]⟩ : Shape)) (p : Fin a) :
    (src ∘ h.lift (ix1 p)) = fun k : Fin b => src (ix2 p k) :=
  funext fun k => congrArg src (Keepdims.lift_lane h p k)

/-- A kernel's lane maximum from −∞, at row p. -/
theorem laneMax_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [comp_lift src h p]
  show Finset.fold max (Ideal.ofBits .f32 0xFF800000#32) _ _ = _
  rw [ofBits_neg_inf]
  rfl

/-- The host's maximum-reduce along the rows from the scalar −∞, at row p. -/
theorem hostMax_apply {a b : ℕ} (src : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce (FloatOps.maximumf (F := Ideal) (φ := .f32)) src (constant (F := Ideal) ⟨0, ![]⟩ .f32 0xFF800000#32) h' hu (ix1 p)
      = (Finset.univ : Finset (Fin b)).fold max ⊥ (fun k => src (ix2 p k)) := by
  rw [Host.reduce_eq_fold_single (FloatOps.maximumf (F := Ideal) (φ := .f32)) src _ h' h hu (ix1 p), comp_lift src h p]
  show Finset.fold max (Ideal.ofBits .f32 0xFF800000#32) _ _ = _
  rw [ofBits_neg_inf]
  rfl

end RowMax

end
-- ==== Proof.LibSoftRow.lean ====
/-
  The softmax of one row of extended reals, shifted by the row's maximum.

  For a row s of n entries let M be the row's maximum, the maximum of no entries being −∞. Entry j of the softmax is
    exp(s_j − M) / Σ_k exp(s_k − M),
  the quotient being the extended reals' own. Nothing is assumed finite: two programs that both form it are compared as this one
  expression of the row, so its value at infinite entries is never computed. Also here: −∞, spelt as its f32 word, is
  neutral for the maximum, and the zero word for the sum.
-/
import Idealize.ShloMosaic.PureOps.Ideal
import proofs.«164714_j43679817400719_2_alg».proof.Proof.LibRowMax

noncomputable section

namespace SoftRow

open Idealize.ShloMosaic

variable {n : ℕ}

/-- The row's maximum, started from −∞. -/
def top (s : Fin n → EReal) : EReal := (Finset.univ : Finset (Fin n)).fold max ⊥ s

/-- The shifted exponential of entry j. -/
def num (s : Fin n → EReal) (j : Fin n) : EReal := Ideal.exp (s j - top s)

/-- Entry j of the softmax of the row. -/
def prob (s : Fin n → EReal) (j : Fin n) : EReal := Ideal.div (num s j) (∑ k : Fin n, num s k)

/-- The maximum of −∞ (spelt as its f32 word) and x is x: −∞ is the bottom of the extended reals. -/
theorem max_negInf (x : EReal) : max (Ideal.ofBits .f32 0xFF800000#32) x = x := by
  rw [RowMax.ofBits_neg_inf]
  exact max_eq_right bot_le

/-- A sum started from the zero word is the sum. -/
theorem zero_word_add (x : EReal) : Ideal.ofBits .f32 0x00000000#32 + x = x := by
  rw [Ideal.ofBits_zero_f32, zero_add]

end SoftRow

end
-- ==== Proof.LibSoftTile.lean ====
/-
  The row softmax of an [a, b] f32 tile as a kernel forms it with one lane maximum, read at an entry.

  With s the row p of the tile, such a kernel takes the lane maximum M of the row from the word of −∞, the exponentials
  e_j = exp(s_j − M), their lane sum from the zero word, and the quotients e_j / Σ_k e_k; the two row vectors are kept
  as [a, 1] columns and spread back over [a, b]. On the extended reals the entry (p, j) of the result is the softmax
  of the row at j (SoftRow.prob): a row's entries meet the maximum and the sum in an order that does not matter, and
  nothing is rounded. Stated for any extents a and b.
-/
import Idealize.ShloMosaic.Lib.Pipeline.Value
import Idealize.ShloMosaic.Lib.ValueIdx
import Idealize.ShloMosaic.PureOps.Ideal.Laws
import proofs.«164714_j43679817400719_2_alg».proof.Proof.LibKeepdims
import proofs.«164714_j43679817400719_2_alg».proof.Proof.LibRowMax
import proofs.«164714_j43679817400719_2_alg».proof.Proof.LibSoftRow

noncomputable section

namespace SoftTile

open Idealize.ShloMosaic Idealize.ShloMosaic.ValueIdx

variable {a b : ℕ}

/-- The tile of shifted exponentials: each entry minus its row's maximum, exponentiated. -/
def expTile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩
    (shapeCast ⟨2, ![a, 1]⟩ (multiReduction .maximumf [1] ⟨1, ![a]⟩ S 0xFF800000#32 hr hφ hm) hc) hb))

/-- The softmax tile: the exponentials over their row sums. -/
def tile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expTile S hr hφ hm hc hb)
    (broadcastTo ⟨2, ![a, b]⟩
      (shapeCast ⟨2, ![a, 1]⟩ (multiReduction .add [1] ⟨1, ![a]⟩ (expTile S hr hφ hm hc hb) 0x00000000#32 hr hφ hz) hc) hb)

/-- The exponential tile at (p, k) is the shifted exponential of entry k of row p. -/
theorem expTile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (k : Fin b) :
    expTile S hr hφ hm hc hb (ix2 p k) = SoftRow.num (fun k => S (ix2 p k)) k := by
  show Ideal.exp (S (ix2 p k) - broadcastTo ⟨2, ![a, b]⟩
    (shapeCast ⟨2, ![a, 1]⟩ (multiReduction .maximumf [1] ⟨1, ![a]⟩ S 0xFF800000#32 hr hφ hm) hc) hb (ix2 p k)) = _
  rw [Keepdims.broadcastTo_a1_ab_apply, Keepdims.shapeCast_a_a1_apply, RowMax.laneMax_apply]
  rfl

/-- The softmax tile at (p, j) is entry j of the softmax of row p. -/
theorem tile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (j : Fin b) :
    tile S hr hφ hm hz hc hb (ix2 p j) = SoftRow.prob (fun k => S (ix2 p k)) j := by
  show Ideal.div (expTile S hr hφ hm hc hb (ix2 p j))
      (broadcastTo ⟨2, ![a, b]⟩ (shapeCast ⟨2, ![a, 1]⟩
        (multiReduction .add [1] ⟨1, ![a]⟩ (expTile S hr hφ hm hc hb) 0x00000000#32 hr hφ hz) hc) hb (ix2 p j)) = _
  rw [Keepdims.broadcastTo_a1_ab_apply, Keepdims.shapeCast_a_a1_apply, Keepdims.laneSum_apply, expTile_apply]
  exact congrArg (Ideal.div _) (Finset.sum_congr rfl fun k _ => expTile_apply S hr hφ hm hc hb p k)

end SoftTile

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.Spec.lean ====
/-
  The attention function both programs of this certificate compute, index by index on the extended reals.

  Arguments: the query Q [T, B, D] (time-major), the keys K [B, S, D], the values V [B, S, E], an additive mask
  M [B, S] and the projection W [D, D] (T = S = D = E = 1024, B = 16). With
    qp(b, t, d)    = Σ_q Q(t, b, q) · W(d, q)                      the query projected,
    logit(b, t, s) = Σ_d qp(b, t, d) · K(b, s, d) + M(b, s)        the masked scores,
    score(b, t, ·) = the softmax of the row logit(b, t, ·)           (SoftRow.prob),
    ctx(b, t, v)   = Σ_s score(b, t, s) · V(b, s, v)               the attended values,
  the two results are the arrays score and ctx. The four functions are made irreducible at the end of this module and
  are opened only by their defining equations (qp_def … ctx_def): two sides of an equation are compared as these
  expressions, never by evaluating a sum of 1024 terms.
-/
import Idealize.ShloMosaic.Lib.ValueIdx
import proofs.«164714_j43679817400719_2_alg».proof.Proof.LibSoftRow

noncomputable section

namespace Attn

open Idealize.ShloMosaic Idealize.ShloMosaic.ValueIdx

variable (Q : (⟨3, ![1024, 16, 1024]⟩ : Shape).Idx → EReal) (K V : (⟨3, ![16, 1024, 1024]⟩ : Shape).Idx → EReal)
  (M : (⟨2, ![16, 1024]⟩ : Shape).Idx → EReal) (W : (⟨2, ![1024, 1024]⟩ : Shape).Idx → EReal)

/-- The projected query: row t of batch b against row d of W. -/
def qp (b : Fin 16) (t : Fin 1024) (d : Fin 1024) : EReal := ∑ q : Fin 1024, Q (ix3 t b q) * W (ix2 d q)

/-- The masked score of query position t against key position s in batch b. -/
def logit (b : Fin 16) (t : Fin 1024) (s : Fin 1024) : EReal :=
  (∑ d : Fin 1024, qp Q W b t d * K (ix3 b s d)) + M (ix2 b s)

/-- The attention weight: the softmax over the key positions. -/
def score (b : Fin 16) (t : Fin 1024) (s : Fin 1024) : EReal := SoftRow.prob (fun k => logit Q K M W b t k) s

/-- The attended values. -/
def ctx (b : Fin 16) (t : Fin 1024) (v : Fin 1024) : EReal := ∑ s : Fin 1024, score Q K M W b t s * V (ix3 b s v)

theorem qp_def (b : Fin 16) (t : Fin 1024) (d : Fin 1024) :
    qp Q W b t d = ∑ q : Fin 1024, Q (ix3 t b q) * W (ix2 d q) := rfl

theorem logit_def (b : Fin 16) (t : Fin 1024) (s : Fin 1024) :
    logit Q K M W b t s = (∑ d : Fin 1024, qp Q W b t d * K (ix3 b s d)) + M (ix2 b s) := rfl

theorem score_def (b : Fin 16) (t : Fin 1024) (s : Fin 1024) :
    score Q K M W b t s = SoftRow.prob (fun k => logit Q K M W b t k) s := rfl

theorem ctx_def (b : Fin 16) (t : Fin 1024) (v : Fin 1024) :
    ctx Q K V M W b t v = ∑ s : Fin 1024, score Q K M W b t s * V (ix3 b s v) := rfl

/-- The first result: the attention weights as an array [B, T, S]. -/
def scoreArr : (⟨3, ![16, 1024, 1024]⟩ : Shape).Idx → EReal := fun i => score Q K M W (i 0) (i 1) (i 2)

/-- The second result: the attended values as an array [B, T, E]. -/
def ctxArr : (⟨3, ![16, 1024, 1024]⟩ : Shape).Idx → EReal := fun i => ctx Q K V M W (i 0) (i 1) (i 2)

theorem scoreArr_apply (b : Fin 16) (t : Fin 1024) (s : Fin 1024) :
    scoreArr Q K M W (ix3 b t s) = score Q K M W b t s := rfl

theorem ctxArr_apply (b : Fin 16) (t : Fin 1024) (v : Fin 1024) :
    ctxArr Q K V M W (ix3 b t v) = ctx Q K V M W b t v := rfl

attribute [irreducible] qp logit score ctx

end Attn

end
-- ==== Proof.KernelPay.lean ====
/-
  The kernel body's stored values read at an index, over arbitrary loaded blocks.

  At a grid point the body loads X0, a [1, 512, 1024] block of the (batch-major) query; X1, the whole [1024, 1024]
  transposed projection; X2 and X3, the [1, 1024, 1024] blocks of the keys and of the values of the point's batch; and
  X4, the [1, 1, 1024] mask row of that batch. On the extended reals (a change of float format is the identity) it stores
    • the score block, at (0, p, j): the softmax over s, at j, of
        Σ_d (Σ_q X0(0, p, q) · X1(q, d)) · X2(0, s, d) + X4(0, 0, s)                      (score_apply),
    • the context block, at (0, p, v): Σ_s score(p, s) · X3(0, s, v)                        (ctx_apply).
  If the blocks are read from the argument arrays — X0(0, p, q) = Q(t, b, q), X1(q, d) = W(d, q),
  X2(0, s, d) = K(b, s, d), X3(0, s, v) = V(b, s, v), X4(0, 0, s) = M(b, s) — these are the attention weights and the
  attended values of (b, t) (score_point, ctx_point).
-/
import proofs.«164714_j43679817400719_2_alg».proof.Proof.Gen.KernelIdeal.Skeleton
import Idealize.ShloMosaic.Lib.ValueLayout
import Idealize.ShloMosaic.Lib.ValueIdx
import Idealize.ShloMosaic.PureOps.Ideal.Laws
import proofs.«164714_j43679817400719_2_alg».proof.Proof.LibSoftTile
import proofs.«164714_j43679817400719_2_alg».proof.Proof.LibPlainDot
import proofs.«164714_j43679817400719_2_alg».proof.Proof.LibTransDot
import proofs.«164714_j43679817400719_2_alg».proof.Proof.Spec

noncomputable section

namespace Cert.KernelIdeal.Pay

open Cert.KernelIdeal Cert.KernelIdeal.Gen Idealize.ShloMosaic Idealize.ShloMosaic.ValueIdx

variable (X0 : FVec Ideal S1x512x1024 .bf16) (X1 : FVec Ideal S1024x1024 .bf16) (X2 X3 : FVec Ideal S1x1024x1024 .bf16)
  (X4 : FVec Ideal S1x1x1024 .f32)

/-- The block's query rows against the transposed projection, at (p, d): Σ_q X0(0, p, q) · X1(q, d). -/
theorem proj_apply (p : Fin 512) (d : Fin 1024) :
    matmul dot_S512x1024_S1024x1024_S512x1024_1_0_0_1_n_n none
      (shapeCast S512x1024 X0 shapeCasts_S1x512x1024_S512x1024) (shapeCast S1024x1024 X1 shapeCasts_S1024x1024_S1024x1024)
      (constant S512x1024 .f32 0x00000000#32) (ix2 p d)
      = ∑ q : Fin 1024, X0 (ix3 (0 : Fin 1) p q) * X1 (ix2 q d) := by
  refine (Ideal.matmul_constant_zero_apply _ none _ _ (ix2 p d)).trans ?_
  refine (Cert.PlainDot.contraction_eq (M := 512) (K := 1024) (N := 1024) _ _ p d).trans ?_
  exact Finset.sum_congr rfl fun q _ => congrArg₂ (· * ·)
    (shapeCast_1ab_ab_apply X0 shapeCasts_S1x512x1024_S512x1024 p q)
    (congrFun (shapeCast_self X1 shapeCasts_S1024x1024_S1024x1024) (ix2 q d))

/-- Rows L against the rows of the key block, at (p, s): Σ_d L(p, d) · X2(0, s, d). -/
theorem keys_apply (L : FVec Ideal S512x1024 .f32) (p : Fin 512) (s : Fin 1024) :
    matmul dot_S512x1024_S1024x1024_S512x1024_1_1_0_0_n_n none (truncf .bf16 L bitsLt_bf16_f32)
      (shapeCast S1024x1024 X2 shapeCasts_S1x1024x1024_S1024x1024) (constant S512x1024 .f32 0x00000000#32) (ix2 p s)
      = ∑ d : Fin 1024, L (ix2 p d) * X2 (ix3 (0 : Fin 1) s d) := by
  refine (Ideal.matmul_constant_zero_apply _ none _ _ (ix2 p s)).trans ?_
  refine (Cert.TransDot.contraction_eq (M := 512) (K := 1024) (N := 1024) _ _ p s).trans ?_
  exact Finset.sum_congr rfl fun d _ => congrArg (L (ix2 p d) * ·)
    (shapeCast_1ab_ab_apply X2 shapeCasts_S1x1024x1024_S1024x1024 s d)

/-- The mask row spread over the block's rows, at (p, s): X4(0, 0, s). -/
theorem mask_apply (p : Fin 512) (s : Fin 1024) :
    broadcastTo S512x1024 (shapeCast S1x1024 X4 shapeCasts_S1x1x1024_S1x1024) broadcasts_S1x1024_S512x1024 (ix2 p s)
      = X4 (ix3 (0 : Fin 1) (0 : Fin 1) s) :=
  (broadcastTo_1b_ab_apply _ broadcasts_S1x1024_S512x1024 p s).trans
    (shapeCast_1ab_ab_apply X4 shapeCasts_S1x1x1024_S1x1024 (0 : Fin 1) s)

/-- The block's masked scores as the body forms them. -/
def logits : FVec Ideal S512x1024 .f32 :=
  addf (matmul dot_S512x1024_S1024x1024_S512x1024_1_1_0_0_n_n none
      (truncf .bf16 (matmul dot_S512x1024_S1024x1024_S512x1024_1_0_0_1_n_n none
        (shapeCast S512x1024 X0 shapeCasts_S1x512x1024_S512x1024) (shapeCast S1024x1024 X1 shapeCasts_S1024x1024_S1024x1024)
        (constant S512x1024 .f32 0x00000000#32)) bitsLt_bf16_f32)
      (shapeCast S1024x1024 X2 shapeCasts_S1x1024x1024_S1024x1024) (constant S512x1024 .f32 0x00000000#32))
    (broadcastTo S512x1024 (shapeCast S1x1024 X4 shapeCasts_S1x1x1024_S1x1024) broadcasts_S1x1024_S512x1024)

/-- The masked score at (p, s): Σ_d (Σ_q X0(0, p, q) · X1(q, d)) · X2(0, s, d) + X4(0, 0, s). -/
theorem logits_apply (p : Fin 512) (s : Fin 1024) :
    logits X0 X1 X2 X4 (ix2 p s)
      = (∑ d : Fin 1024, (∑ q : Fin 1024, X0 (ix3 (0 : Fin 1) p q) * X1 (ix2 q d)) * X2 (ix3 (0 : Fin 1) s d))
        + X4 (ix3 (0 : Fin 1) (0 : Fin 1) s) := by
  refine congrArg₂ (· + ·) ?_ (mask_apply X4 p s)
  refine (keys_apply X2 _ p s).trans ?_
  exact Finset.sum_congr rfl fun d _ => congrArg (· * X2 (ix3 (0 : Fin 1) s d)) (proj_apply X0 X1 p d)

/-- The body's score tile is the softmax tile of its masked scores. -/
theorem pay1_eq : k0_pay1 (F := Ideal) X0 X1 X2 X4
    = SoftTile.tile (logits X0 X1 X2 X4) reduces_S512x1024_S512 (.inl rfl) rfl rfl shapeCasts_S512_S512x1 broadcasts_S512x1_S512x1024 :=
  rfl

/-- The score tile at (p, j): the softmax over s, at j, of the masked scores of row p. -/
theorem score_apply (p : Fin 512) (j : Fin 1024) :
    k0_pay1 (F := Ideal) X0 X1 X2 X4 (ix2 p j)
      = SoftRow.prob (fun s : Fin 1024 =>
          (∑ d : Fin 1024, (∑ q : Fin 1024, X0 (ix3 (0 : Fin 1) p q) * X1 (ix2 q d)) * X2 (ix3 (0 : Fin 1) s d))
            + X4 (ix3 (0 : Fin 1) (0 : Fin 1) s)) j := by
  rw [pay1_eq, SoftTile.tile_apply]
  exact congrArg (fun r => SoftRow.prob r j) (funext fun s => logits_apply X0 X1 X2 X4 p s)

/-- The stored score block at (u, p, j) is the score tile at (p, j). -/
theorem pay2_apply (u : Fin 1) (p : Fin 512) (j : Fin 1024) :
    k0_pay2 (F := Ideal) X0 X1 X2 X4 (ix3 u p j) = k0_pay1 (F := Ideal) X0 X1 X2 X4 (ix2 p j) :=
  shapeCast_ab_1ab_apply (k0_pay1 (F := Ideal) X0 X1 X2 X4) shapeCasts_S512x1024_S1x512x1024 u p j

/-- Weights L against the value block, stored as a [1, 512, 1024] block, at (u, p, v): Σ_s L(p, s) · X3(0, s, v). -/
theorem values_apply (L : FVec Ideal S512x1024 .f32) (u : Fin 1) (p : Fin 512) (v : Fin 1024) :
    shapeCast S1x512x1024 (matmul dot_S512x1024_S1024x1024_S512x1024_1_0_0_1_n_n none (truncf .bf16 L bitsLt_bf16_f32)
      (shapeCast S1024x1024 X3 shapeCasts_S1x1024x1024_S1024x1024) (constant S512x1024 .f32 0x00000000#32))
      shapeCasts_S512x1024_S1x512x1024 (ix3 u p v)
      = ∑ s : Fin 1024, L (ix2 p s) * X3 (ix3 (0 : Fin 1) s v) := by
  refine (shapeCast_ab_1ab_apply _ shapeCasts_S512x1024_S1x512x1024 u p v).trans ?_
  refine (Ideal.matmul_constant_zero_apply _ none _ _ (ix2 p v)).trans ?_
  refine (Cert.PlainDot.contraction_eq (M := 512) (K := 1024) (N := 1024) _ _ p v).trans ?_
  exact Finset.sum_congr rfl fun s _ => congrArg (L (ix2 p s) * ·)
    (shapeCast_1ab_ab_apply X3 shapeCasts_S1x1024x1024_S1024x1024 s v)

/-- The stored context block at (u, p, v): Σ_s score(p, s) · X3(0, s, v). -/
theorem ctx_apply (u : Fin 1) (p : Fin 512) (v : Fin 1024) :
    k0_pay3 (F := Ideal) X0 X1 X2 X4 X3 (ix3 u p v) = ∑ s : Fin 1024, k0_pay1 (F := Ideal) X0 X1 X2 X4 (ix2 p s) * X3 (ix3 (0 : Fin 1) s v) :=
  values_apply X3 (k0_pay1 (F := Ideal) X0 X1 X2 X4) u p v

/-! ## The blocks read from the argument arrays -/

variable (Q : (⟨3, ![1024, 16, 1024]⟩ : Shape).Idx → EReal) (K V : (⟨3, ![16, 1024, 1024]⟩ : Shape).Idx → EReal)
  (M : (⟨2, ![16, 1024]⟩ : Shape).Idx → EReal) (W : (⟨2, ![1024, 1024]⟩ : Shape).Idx → EReal)

/-- With the blocks read from the arrays at batch b and query position t, row p of the score tile is the attention
    weights of (b, t). -/
theorem score_point (b : Fin 16) (t : Fin 1024) (p : Fin 512)
    (h0 : ∀ q : Fin 1024, X0 (ix3 (0 : Fin 1) p q) = Q (ix3 t b q))
    (h1 : ∀ (q d : Fin 1024), X1 (ix2 q d) = W (ix2 d q))
    (h2 : ∀ (s d : Fin 1024), X2 (ix3 (0 : Fin 1) s d) = K (ix3 b s d))
    (h4 : ∀ s : Fin 1024, X4 (ix3 (0 : Fin 1) (0 : Fin 1) s) = M (ix2 b s)) (j : Fin 1024) :
    k0_pay1 (F := Ideal) X0 X1 X2 X4 (ix2 p j) = Attn.score Q K M W b t j := by
  rw [score_apply, Attn.score_def]
  refine congrArg (fun r => SoftRow.prob r j) (funext fun s => ?_)
  rw [Attn.logit_def]
  refine congrArg₂ (· + ·) (Finset.sum_congr rfl fun d _ => ?_) (h4 s)
  rw [Attn.qp_def]
  exact congrArg₂ (· * ·) (Finset.sum_congr rfl fun q _ => congrArg₂ (· * ·) (h0 q) (h1 q d)) (h2 s d)

/-- … and row p of the context block is the attended values of (b, t). -/
theorem ctx_point (b : Fin 16) (t : Fin 1024) (p : Fin 512)
    (h0 : ∀ q : Fin 1024, X0 (ix3 (0 : Fin 1) p q) = Q (ix3 t b q))
    (h1 : ∀ (q d : Fin 1024), X1 (ix2 q d) = W (ix2 d q))
    (h2 : ∀ (s d : Fin 1024), X2 (ix3 (0 : Fin 1) s d) = K (ix3 b s d))
    (h3 : ∀ (s v : Fin 1024), X3 (ix3 (0 : Fin 1) s v) = V (ix3 b s v))
    (h4 : ∀ s : Fin 1024, X4 (ix3 (0 : Fin 1) (0 : Fin 1) s) = M (ix2 b s)) (u : Fin 1) (v : Fin 1024) :
    k0_pay3 (F := Ideal) X0 X1 X2 X4 X3 (ix3 u p v) = Attn.ctx Q K V M W b t v := by
  rw [ctx_apply, Attn.ctx_def]
  exact Finset.sum_congr rfl fun s _ => congrArg₂ (· * ·)
    (score_point X0 X1 X2 X4 Q K M W b t p h0 h1 h2 h4 s) (h3 s v)

end Cert.KernelIdeal.Pay

end
-- ==== Proof.KernelBlocks.lean ====
/-
  The kernel's two result arrays after its run are the attention weights and the attended values of the arguments.

  The grid has a point per batch b and per half ti of the query positions. Before the region the host leaves the
  query batch-major (entry (b, t, q) of it is Q(t, b, q)), W transposed, and the mask as [16, 1, 1024] rows; a change of
  float format is the identity on the extended reals. At the point (b, ti) the input blocks are therefore rows
  512·ti … 512·ti + 511 of batch b of the query, all of the transposed W, and the keys, values and mask row of batch b
  (query_block … mask_block): row p of what the point writes back is the attention weights, and the attended values,
  of (b, 512·ti + p) (score_flushed, ctx_flushed). The blocks of the points tile both result arrays (cover5, cover6),
  so each array ends holding its function of the arguments (final5, final6, run).
-/
import proofs.«164714_j43679817400719_2_alg».proof.Proof.Gen.KernelIdeal.Value
import Idealize.ShloMosaic.Lib.Pipeline.Value
import Idealize.ShloMosaic.Lib.StableHlo.Run
import Idealize.ShloMosaic.Lib.ValueLayout
import proofs.«164714_j43679817400719_2_alg».proof.Proof.KernelPay

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays, and the two functions of them the results are -/

abbrev argQ (c : Dev nD) : (⟨3, ![1024, 16, 1024]⟩ : Shape).Idx → EReal := m ((c : Thread nD τ).loc main_arg0)
abbrev argK (c : Dev nD) : (⟨3, ![16, 1024, 1024]⟩ : Shape).Idx → EReal := m ((c : Thread nD τ).loc main_arg1)
abbrev argV (c : Dev nD) : (⟨3, ![16, 1024, 1024]⟩ : Shape).Idx → EReal := m ((c : Thread nD τ).loc main_arg2)
abbrev argM (c : Dev nD) : (⟨2, ![16, 1024]⟩ : Shape).Idx → EReal := m ((c : Thread nD τ).loc main_arg3)
abbrev argW (c : Dev nD) : (⟨2, ![1024, 1024]⟩ : Shape).Idx → EReal := m ((c : Thread nD τ).loc main_arg4)

/-- The attention weights of the launched arguments. -/
abbrev scoreOut (c : Dev nD) : (⟨3, ![16, 1024, 1024]⟩ : Shape).Idx → EReal :=
  Attn.scoreArr (argQ m c) (argK m c) (argM m c) (argW m c)

/-- The attended values of the launched arguments. -/
abbrev ctxOut (c : Dev nD) : (⟨3, ![16, 1024, 1024]⟩ : Shape).Idx → EReal :=
  Attn.ctxArr (argQ m c) (argK m c) (argV m c) (argM m c) (argW m c)

/-! ## What the region finds in the arrays the host wrote -/

theorem V_query (c : Dev nD) : (V m c main_v1 : S16x1024x1024.Idx → EReal)
    = truncf (F := Ideal) .bf16 (transpose S16x1024x1024 [1, 0, 2] (m ((c : Thread nD τ).loc main_arg0)) transposes_S1024x16x1024_S16x1024x1024_1_0_2) bitsLt_bf16_f32 := by
  dsimp only [Gen.V, Gen.hostOps0]; after_results <;> rfl

theorem V_proj (c : Dev nD) : (V m c main_v3 : S1024x1024.Idx → EReal)
    = truncf (F := Ideal) .bf16 (transpose S1024x1024 [1, 0] (m ((c : Thread nD τ).loc main_arg4)) transposes_S1024x1024_S1024x1024_1_0) bitsLt_bf16_f32 := by
  dsimp only [Gen.V, Gen.hostOps0]; after_results <;> rfl

theorem V_keys (c : Dev nD) : (V m c main_v4 : S16x1024x1024.Idx → EReal)
    = truncf (F := Ideal) .bf16 (m ((c : Thread nD τ).loc main_arg1)) bitsLt_bf16_f32 := by
  dsimp only [Gen.V, Gen.hostOps0]; after_results <;> rfl

theorem V_values (c : Dev nD) : (V m c main_v5 : S16x1024x1024.Idx → EReal)
    = truncf (F := Ideal) .bf16 (m ((c : Thread nD τ).loc main_arg2)) bitsLt_bf16_f32 := by
  dsimp only [Gen.V, Gen.hostOps0]; after_results <;> rfl

theorem V_mask (c : Dev nD) : (V m c main_v6 : S16x1x1024.Idx → EReal)
    = broadcastInDim S16x1x1024 ![0, 2] bcast_S16x1024_S16x1x1024_0_2 (m ((c : Thread nD τ).loc main_arg3)) := by
  dsimp only [Gen.V, Gen.hostOps0]; after_results <;> rfl

/-- The batch-major query at (b, t, q) is Q(t, b, q). -/
theorem V_query_apply (c : Dev nD) (b : Fin 16) (t q : Fin 1024) :
    (V m c main_v1 : S16x1024x1024.Idx → EReal) (ix3 b t q) = argQ m c (ix3 t b q) := by
  rw [V_query m c]
  exact transpose_apply [1, 0, 2] _ transposes_S1024x16x1024_S16x1024x1024_1_0_2 (ix3 b t q) (ix3 t b q)
    (fun a => match a with
      | ⟨0, _⟩ => rfl
      | ⟨1, _⟩ => rfl
      | ⟨2, _⟩ => rfl)

/-- The transposed projection at (q, d) is W(d, q). -/
theorem V_proj_apply (c : Dev nD) (q d : Fin 1024) :
    (V m c main_v3 : S1024x1024.Idx → EReal) (ix2 q d) = argW m c (ix2 d q) := by
  rw [V_proj m c]
  exact transpose_ix2_apply _ transposes_S1024x1024_S1024x1024_1_0 q d

theorem V_keys_apply (c : Dev nD) (i : S16x1024x1024.Idx) :
    (V m c main_v4 : S16x1024x1024.Idx → EReal) i = argK m c i := by
  rw [V_keys m c]; rfl

theorem V_values_apply (c : Dev nD) (i : S16x1024x1024.Idx) :
    (V m c main_v5 : S16x1024x1024.Idx → EReal) i = argV m c i := by
  rw [V_values m c]; rfl

/-- The mask as [16, 1, 1024] rows at (b, z, s) is M(b, s). -/
theorem V_mask_apply (c : Dev nD) (b : Fin 16) (z : Fin 1) (s : Fin 1024) :
    (V m c main_v6 : S16x1x1024.Idx → EReal) (ix3 b z s) = argM m c (ix2 b s) := by
  rw [V_mask m c]
  exact broadcastInDim_apply _ bcast_S16x1024_S16x1x1024_0_2 _ (ix3 b z s) (ix2 b s) (fun a => match a with
    | ⟨0, _⟩ => by show b.val = if (16 : Nat) = 1 then 0 else b.val; rw [if_neg (by decide)]
    | ⟨1, _⟩ => by show s.val = if (1024 : Nat) = 1 then 0 else s.val; rw [if_neg (by decide)])

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The query block moves with the score block on the batch and row axes. -/
theorem idx_w0 : ∀ t : Fin cfg0.N, win0_0.index t (0 : Fin 3) = win0_5.index t (0 : Fin 3)
    ∧ win0_0.index t (1 : Fin 3) = win0_5.index t (1 : Fin 3) ∧ win0_0.index t (2 : Fin 3) = 0 :=
  (by decide +kernel : ∀ t : Fin grid0.N, _)

/-- The transposed projection is one block. -/
theorem idx_w1 : ∀ t : Fin cfg0.N, win0_1.index t (0 : Fin 2) = 0 ∧ win0_1.index t (1 : Fin 2) = 0 :=
  (by decide +kernel : ∀ t : Fin grid0.N, _)

/-- The key block is the batch's. -/
theorem idx_w2 : ∀ t : Fin cfg0.N, win0_2.index t (0 : Fin 3) = win0_5.index t (0 : Fin 3)
    ∧ win0_2.index t (1 : Fin 3) = 0 ∧ win0_2.index t (2 : Fin 3) = 0 :=
  (by decide +kernel : ∀ t : Fin grid0.N, _)

/-- The value block is the batch's. -/
theorem idx_w3 : ∀ t : Fin cfg0.N, win0_3.index t (0 : Fin 3) = win0_5.index t (0 : Fin 3)
    ∧ win0_3.index t (1 : Fin 3) = 0 ∧ win0_3.index t (2 : Fin 3) = 0 :=
  (by decide +kernel : ∀ t : Fin grid0.N, _)

/-- The mask row is the batch's. -/
theorem idx_w4 : ∀ t : Fin cfg0.N, win0_4.index t (0 : Fin 3) = win0_5.index t (0 : Fin 3)
    ∧ win0_4.index t (1 : Fin 3) = 0 ∧ win0_4.index t (2 : Fin 3) = 0 :=
  (by decide +kernel : ∀ t : Fin grid0.N, _)

/-- The score block's batch and half stay in range, and it spans the key positions. -/
theorem idx_w5 : ∀ t : Fin cfg0.N, win0_5.index t (0 : Fin 3) ≤ 15 ∧ win0_5.index t (1 : Fin 3) ≤ 1
    ∧ win0_5.index t (2 : Fin 3) = 0 :=
  (by decide +kernel : ∀ t : Fin grid0.N, _)

/-- The context block moves with the score block. -/
theorem idx_w6 : ∀ t : Fin cfg0.N, win0_6.index t (0 : Fin 3) = win0_5.index t (0 : Fin 3)
    ∧ win0_6.index t (1 : Fin 3) = win0_5.index t (1 : Fin 3) ∧ win0_6.index t (2 : Fin 3) = 0 :=
  (by decide +kernel : ∀ t : Fin grid0.N, _)

/-- Every (batch, half) is some point's score block. -/
theorem idx_onto5 : ∀ (q0 : Fin 16) (q1 : Fin 2), ∃ t : Fin cfg0.N, win0_5.index t = ![q0.val, q1.val, 0] :=
  (by decide +kernel : ∀ (q0 : Fin 16) (q1 : Fin 2), ∃ t : Fin grid0.N, win0_5.index t = ![q0.val, q1.val, 0])

/-- Every (batch, half) is some point's context block. -/
theorem idx_onto6 : ∀ (q0 : Fin 16) (q1 : Fin 2), ∃ t : Fin cfg0.N, win0_6.index t = ![q0.val, q1.val, 0] :=
  (by decide +kernel : ∀ (q0 : Fin 16) (q1 : Fin 2), ∃ t : Fin grid0.N, win0_6.index t = ![q0.val, q1.val, 0])

/-! ## The input blocks at a point, read from the argument arrays

The point's batch b and a row's query position T are given by their values: b is the score block's index on axis 0,
T is 512 times its index on axis 1 plus the row p inside the block. -/

theorem query_block (c : Dev nD) (t : Fin cfg0.N) (b : Fin 16) (T : Fin 1024) (p : Fin 512)
    (hb : b.val = win0_5.index t (0 : Fin 3)) (hT : T.val = win0_5.index t (1 : Fin 3) * 512 + p.val) (q : Fin 1024) :
    (iblk m c 0 t : FVec Ideal S1x512x1024 .bf16) (ix3 (0 : Fin 1) p q) = argQ m c (ix3 T b q) := by
  obtain ⟨e0, e1, e2⟩ := idx_w0 t
  rw [← V_query_apply m c b T q]
  show (V m c main_v1 : S16x1024x1024.Idx → EReal) (((cfg0.win 0).blk t).view.emb (ix3 (0 : Fin 1) p q)) = _
  refine congrArg (V m c main_v1 : S16x1024x1024.Idx → EReal) ?_
  funext a; apply Fin.ext
  match a with
  | ⟨0, _⟩ => show win0_0.index t (0 : Fin 3) * 1 + 1 * 0 = b.val; omega
  | ⟨1, _⟩ => show win0_0.index t (1 : Fin 3) * 512 + 1 * p.val = T.val; omega
  | ⟨2, _⟩ => show win0_0.index t (2 : Fin 3) * 1024 + 1 * q.val = q.val; omega

theorem proj_block (c : Dev nD) (t : Fin cfg0.N) (q d : Fin 1024) :
    (iblk m c 1 t : FVec Ideal S1024x1024 .bf16) (ix2 q d) = argW m c (ix2 d q) := by
  obtain ⟨e0, e1⟩ := idx_w1 t
  rw [← V_proj_apply m c q d]
  show (V m c main_v3 : S1024x1024.Idx → EReal) (((cfg0.win 1).blk t).view.emb (ix2 q d)) = _
  refine congrArg (V m c main_v3 : S1024x1024.Idx → EReal) ?_
  funext a; apply Fin.ext
  match a with
  | ⟨0, _⟩ => show win0_1.index t (0 : Fin 2) * 1024 + 1 * q.val = q.val; omega
  | ⟨1, _⟩ => show win0_1.index t (1 : Fin 2) * 1024 + 1 * d.val = d.val; omega

theorem keys_block (c : Dev nD) (t : Fin cfg0.N) (b : Fin 16) (hb : b.val = win0_5.index t (0 : Fin 3)) (s d : Fin 1024) :
    (iblk m c 2 t : FVec Ideal S1x1024x1024 .bf16) (ix3 (0 : Fin 1) s d) = argK m c (ix3 b s d) := by
  obtain ⟨e0, e1, e2⟩ := idx_w2 t
  rw [← V_keys_apply m c (ix3 b s d)]
  show (V m c main_v4 : S16x1024x1024.Idx → EReal) (((cfg0.win 2).blk t).view.emb (ix3 (0 : Fin 1) s d)) = _
  refine congrArg (V m c main_v4 : S16x1024x1024.Idx → EReal) ?_
  funext a; apply Fin.ext
  match a with
  | ⟨0, _⟩ => show win0_2.index t (0 : Fin 3) * 1 + 1 * 0 = b.val; omega
  | ⟨1, _⟩ => show win0_2.index t (1 : Fin 3) * 1024 + 1 * s.val = s.val; omega
  | ⟨2, _⟩ => show win0_2.index t (2 : Fin 3) * 1024 + 1 * d.val = d.val; omega

theorem values_block (c : Dev nD) (t : Fin cfg0.N) (b : Fin 16) (hb : b.val = win0_5.index t (0 : Fin 3)) (s v : Fin 1024) :
    (iblk m c 3 t : FVec Ideal S1x1024x1024 .bf16) (ix3 (0 : Fin 1) s v) = argV m c (ix3 b s v) := by
  obtain ⟨e0, e1, e2⟩ := idx_w3 t
  rw [← V_values_apply m c (ix3 b s v)]
  show (V m c main_v5 : S16x1024x1024.Idx → EReal) (((cfg0.win 3).blk t).view.emb (ix3 (0 : Fin 1) s v)) = _
  refine congrArg (V m c main_v5 : S16x1024x1024.Idx → EReal) ?_
  funext a; apply Fin.ext
  match a with
  | ⟨0, _⟩ => show win0_3.index t (0 : Fin 3) * 1 + 1 * 0 = b.val; omega
  | ⟨1, _⟩ => show win0_3.index t (1 : Fin 3) * 1024 + 1 * s.val = s.val; omega
  | ⟨2, _⟩ => show win0_3.index t (2 : Fin 3) * 1024 + 1 * v.val = v.val; omega

theorem mask_block (c : Dev nD) (t : Fin cfg0.N) (b : Fin 16) (hb : b.val = win0_5.index t (0 : Fin 3)) (s : Fin 1024) :
    (iblk m c 4 t : FVec Ideal S1x1x1024 .f32) (ix3 (0 : Fin 1) (0 : Fin 1) s) = argM m c (ix2 b s) := by
  obtain ⟨e0, e1, e2⟩ := idx_w4 t
  rw [← V_mask_apply m c b (0 : Fin 1) s]
  show (V m c main_v6 : S16x1x1024.Idx → EReal) (((cfg0.win 4).blk t).view.emb (ix3 (0 : Fin 1) (0 : Fin 1) s)) = _
  refine congrArg (V m c main_v6 : S16x1x1024.Idx → EReal) ?_
  funext a; apply Fin.ext
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 1024 + 1 * s.val = s.val; omega

/-! ## What a point writes back -/

/-- Point t writes block t of the attention weights. -/
theorem score_flushed (c : Dev nD) (t : Fin cfg0.N) :
    (dats m 0 c).flushed 5 t = ((cfg0.win 5).blk t).view.read (Elt Ideal) (scoreOut m c) := by
  rw [Value.flushed5]
  unfold out0_5
  rw [View.canon_unit_zero hz3]
  simp only [View.ld_unit_zero (S := S1x512x1024) hz3, View.ld_unit_zero (S := S1024x1024) hz2,
    View.ld_unit_zero (S := S1x1024x1024) hz3, View.ld_unit_zero (S := S1x1x1024) hz3]
  obtain ⟨i0, i1, i2⟩ := idx_w5 t
  funext y
  obtain ⟨u, p, j, rfl⟩ : ∃ (u : Fin 1) (p : Fin 512) (j : Fin 1024), y = ix3 u p j := ⟨y 0, y 1, y 2, eq_ix3 y⟩
  have hu : u.val < 1 := u.isLt
  have hp : p.val < 512 := p.isLt
  obtain ⟨b, hb⟩ : ∃ b : Fin 16, b.val = win0_5.index t (0 : Fin 3) := ⟨⟨win0_5.index t (0 : Fin 3), by omega⟩, rfl⟩
  obtain ⟨T, hT⟩ : ∃ T : Fin 1024, T.val = win0_5.index t (1 : Fin 3) * 512 + p.val :=
    ⟨⟨win0_5.index t (1 : Fin 3) * 512 + p.val, by omega⟩, rfl⟩
  have hemb : ((cfg0.win 5).blk t).view.emb (ix3 u p j) = (ix3 b T j : S16x1024x1024.Idx) := by
    funext a; apply Fin.ext
    match a with
    | ⟨0, _⟩ => show win0_5.index t (0 : Fin 3) * 1 + 1 * u.val = b.val; omega
    | ⟨1, _⟩ => show win0_5.index t (1 : Fin 3) * 512 + 1 * p.val = T.val; omega
    | ⟨2, _⟩ => show win0_5.index t (2 : Fin 3) * 1024 + 1 * j.val = j.val; omega
  show k0_pay2 (F := Ideal) (iblk m c 0 t) (iblk m c 1 t) (iblk m c 2 t) (iblk m c 4 t) (ix3 u p j)
    = scoreOut m c (((cfg0.win 5).blk t).view.emb (ix3 u p j))
  refine (Pay.pay2_apply (iblk m c 0 t) (iblk m c 1 t) (iblk m c 2 t) (iblk m c 4 t) u p j).trans ?_
  refine (Pay.score_point (iblk m c 0 t) (iblk m c 1 t) (iblk m c 2 t) (iblk m c 4 t)
    (argQ m c) (argK m c) (argM m c) (argW m c) b T p
    (fun q => query_block m c t b T p hb hT q) (fun q d => proj_block m c t q d)
    (fun s d => keys_block m c t b hb s d) (fun s => mask_block m c t b hb s) j).trans ?_
  exact (Attn.scoreArr_apply (argQ m c) (argK m c) (argM m c) (argW m c) b T j).symm.trans
    (congrArg (scoreOut m c) hemb.symm)

/-- Point t writes block t of the attended values. -/
theorem ctx_flushed (c : Dev nD) (t : Fin cfg0.N) :
    (dats m 0 c).flushed 6 t = ((cfg0.win 6).blk t).view.read (Elt Ideal) (ctxOut m c) := by
  rw [Value.flushed6]
  unfold out0_6
  rw [View.canon_unit_zero hz3]
  simp only [View.ld_unit_zero (S := S1x512x1024) hz3, View.ld_unit_zero (S := S1024x1024) hz2,
    View.ld_unit_zero (S := S1x1024x1024) hz3, View.ld_unit_zero (S := S1x1x1024) hz3]
  obtain ⟨i0, i1, i2⟩ := idx_w5 t
  obtain ⟨g0, g1, g2⟩ := idx_w6 t
  funext y
  obtain ⟨u, p, v, rfl⟩ : ∃ (u : Fin 1) (p : Fin 512) (v : Fin 1024), y = ix3 u p v := ⟨y 0, y 1, y 2, eq_ix3 y⟩
  have hu : u.val < 1 := u.isLt
  have hp : p.val < 512 := p.isLt
  obtain ⟨b, hb⟩ : ∃ b : Fin 16, b.val = win0_5.index t (0 : Fin 3) := ⟨⟨win0_5.index t (0 : Fin 3), by omega⟩, rfl⟩
  obtain ⟨T, hT⟩ : ∃ T : Fin 1024, T.val = win0_5.index t (1 : Fin 3) * 512 + p.val :=
    ⟨⟨win0_5.index t (1 : Fin 3) * 512 + p.val, by omega⟩, rfl⟩
  have hemb : ((cfg0.win 6).blk t).view.emb (ix3 u p v) = (ix3 b T v : S16x1024x1024.Idx) := by
    funext a; apply Fin.ext
    match a with
    | ⟨0, _⟩ => show win0_6.index t (0 : Fin 3) * 1 + 1 * u.val = b.val; omega
    | ⟨1, _⟩ => show win0_6.index t (1 : Fin 3) * 512 + 1 * p.val = T.val; omega
    | ⟨2, _⟩ => show win0_6.index t (2 : Fin 3) * 1024 + 1 * v.val = v.val; omega
  show k0_pay3 (F := Ideal) (iblk m c 0 t) (iblk m c 1 t) (iblk m c 2 t) (iblk m c 4 t) (iblk m c 3 t) (ix3 u p v)
    = ctxOut m c (((cfg0.win 6).blk t).view.emb (ix3 u p v))
  refine (Pay.ctx_point (iblk m c 0 t) (iblk m c 1 t) (iblk m c 2 t) (iblk m c 3 t) (iblk m c 4 t)
    (argQ m c) (argK m c) (argV m c) (argM m c) (argW m c) b T p
    (fun q => query_block m c t b T p hb hT q) (fun q d => proj_block m c t q d)
    (fun s d => keys_block m c t b hb s d) (fun s w => values_block m c t b hb s w)
    (fun s => mask_block m c t b hb s) u v).trans ?_
  exact (Attn.ctxArr_apply (argQ m c) (argK m c) (argV m c) (argM m c) (argW m c) b T v).symm.trans
    (congrArg (ctxOut m c) hemb.symm)

/-! ## The blocks tile the result arrays -/

theorem mem_blk5 (t : Fin cfg0.N) (i : S16x1024x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v7_0).slice (win0_5.rect t)).set ↔ _
  rw [View.set_slice_whole, Rect.mem_set_unit]
  exact Iff.rfl

theorem mem_blk6 (t : Fin cfg0.N) (i : S16x1024x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v7_1).slice (win0_6.rect t)).set ↔ _
  rw [View.set_slice_whole, Rect.mem_set_unit]
  exact Iff.rfl

/-- Every entry of the first result is in the score block of the point of its batch and half. -/
theorem cover5 (i : S16x1024x1024.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1024 := (i 2).isLt
  obtain ⟨t, ht⟩ := idx_onto5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- Every entry of the second result is in the context block of the point of its batch and half. -/
theorem cover6 (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  obtain ⟨t, ht⟩ := idx_onto6 ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-! ## The arrays after the run -/

/-- The first result array ends holding the attention weights. -/
theorem final5 (c : Dev nD) : (dats m 0 c).arrAt 5 cfg0.N = scoreOut m c :=
  (dats m 0 c).arrAt_eq_of_cover 5 (scoreOut m c) (fun t _ => score_flushed m c t) cover5

/-- The second result array ends holding the attended values. -/
theorem final6 (c : Dev nD) : (dats m 0 c).arrAt 6 cfg0.N = ctxOut m c :=
  (dats m 0 c).arrAt_eq_of_cover 6 (ctxOut m c) (fun t _ => ctx_flushed m c t) cover6

/-- The kernel's run: both results at their functions of the launched arguments, the arguments unchanged. -/
theorem run : θ_run defs (onTc (τ := τ) (main (F := Ideal))) ⟨m, fun _ => 0, ρ⟩ fun r => ∀ c : Dev nD,
      r.2.mem ((c : Thread nD τ).loc main_v7_0) = scoreOut m c
      ∧ r.2.mem ((c : Thread nD τ).loc main_v7_1) = ctxOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Blocks

end
-- ==== Proof.LibLastAxisMax.lean ====
/-
  The maximum along the last axis of an [a, b, c] array, started from −∞, as the host takes it, read at an entry.

  The host's one-operand maximum-reduce over axis 2 with the scalar constant −∞ as its initial value is, on the
  extended reals at (p, q), the maximum over k of the entries (p, q, k), with −∞ (the bottom element) the maximum
  of no entries: the maximum is commutative and associative, so the order in which the entries are met does not
  matter. Stated for any extents a, b and c.
-/
import Idealize.ShloMosaic.Lib.Pipeline.Value
import Idealize.ShloMosaic.Lib.ValueIdx
import Idealize.ShloMosaic.PureOps.Ideal.Laws
import proofs.«164714_j43679817400719_2_alg».proof.Proof.LibRowMax

noncomputable section

namespace LastAxisMax

open Idealize.ShloMosaic Idealize.ShloMosaic.ValueIdx

/-- The index of an [a, b, c] array that lies over (p, q) of the reduced [a, b] with the last coordinate k put
    back is (p, q, k). -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum-reduce along the last axis from the scalar −∞, at (p, q). -/
theorem hostMax_apply {a b c : ℕ} (src : FVec Ideal ⟨3, ![a, b, c]⟩ .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce (FloatOps.maximumf (F := Ideal) (φ := .f32)) src (constant (F := Ideal) ⟨0, ![]⟩ .f32 0xFF800000#32) h' hu (ix2 p q)
      = (Finset.univ : Finset (Fin c)).fold max ⊥ (fun k => src (ix3 p q k)) := by
  rw [Host.reduce_eq_fold_single (FloatOps.maximumf (F := Ideal) (φ := .f32)) src _ h' h hu (ix2 p q),
    show (src ∘ h.lift (ix2 p q)) = fun k : Fin c => src (ix3 p q k) from
      funext fun k => congrArg src (lift_last h p q k)]
  show Finset.fold max (Ideal.ofBits .f32 0xFF800000#32) _ _ = _
  rw [RowMax.ofBits_neg_inf]
  rfl

end LastAxisMax

end
-- ==== Proof.RefValue.lean ====
/-
  The reference's two results are the attention weights and the attended values (Attn.scoreArr, Attn.ctxArr).

  The reference projects the query with W's entry written first in each product (commutativity of the product puts
  the query's entry first), contracts with the keys, adds the mask, takes the row maximum from −∞ and once more the
  larger of it and −∞ (which changes nothing: −∞ is the bottom of the extended reals), subtracts, exponentiates, sums
  the row from 0, divides, and contracts with the values. Each stage is read at an index by the generated lemmas of
  the reference's run; the maximum along the last axis by LastAxisMax.hostMax_apply.
-/
import proofs.«164714_j43679817400719_2_alg».proof.Proof.Gen.ReferenceIdeal.Read
import proofs.«164714_j43679817400719_2_alg».proof.Proof.LibLastAxisMax
import proofs.«164714_j43679817400719_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S1024x16x1024, .f32⟩ : BufTy).Contents (Elt Ideal)) (x1 x2 : (⟨S16x1024x1024, .f32⟩ : BufTy).Contents (Elt Ideal))
  (x3 : (⟨S16x1024, .f32⟩ : BufTy).Contents (Elt Ideal)) (x4 : (⟨S1024x1024, .f32⟩ : BufTy).Contents (Elt Ideal))

/-- The reference's masked scores at (b, t, s). -/
theorem logit_apply (b : Fin 16) (t s : Fin 1024) :
    val_main_v5 (F := Ideal) x0 x1 x3 x4 (ix3 b t s) = Attn.logit x0 x1 x3 x4 b t s := by
  rw [val_main_v5_apply, Ideal.addf_def, val_main_v2_apply, val_main_v4_apply, val_main_v3_apply, Attn.logit_def]
  refine congrArg₂ (· + ·) (Finset.sum_congr rfl fun d _ => ?_) (congrArg x3 ?_)
  · rw [val_main_v1_apply, val_main_v0_apply, Attn.qp_def]
    refine congrArg₂ (· * ·) (Finset.sum_congr rfl fun q _ => ?_) (congrArg x1 ?_)
    · refine (mul_comm _ _).trans (congrArg₂ (· * ·) (congrArg x0 ?_) (congrArg x4 ?_))
      · funext a; apply Fin.ext
        match a with
        | ⟨0, _⟩ => rfl
        | ⟨1, _⟩ => rfl
        | ⟨2, _⟩ => rfl
      · funext a; apply Fin.ext
        match a with
        | ⟨0, _⟩ => rfl
        | ⟨1, _⟩ => rfl
    · funext a; apply Fin.ext
      match a with
      | ⟨0, _⟩ => rfl
      | ⟨1, _⟩ => rfl
      | ⟨2, _⟩ => rfl
  · funext a; apply Fin.ext
    match a with
    | ⟨0, _⟩ => rfl
    | ⟨1, _⟩ => rfl

/-- The reference's row shift at (b, t): the maximum of the row of masked scores. -/
theorem top_apply (b : Fin 16) (t : Fin 1024) :
    val_main_v8 (F := Ideal) x0 x1 x3 x4 (ix2 b t) = SoftRow.top (fun k => Attn.logit x0 x1 x3 x4 b t k) := by
  rw [val_main_v8_apply, val_main_v7_apply, val_main_cst_0_apply, Ideal.maximumf_def, Ideal.ofBits_def, SoftRow.max_negInf]
  unfold val_main_v6 val_main_cst
  refine (LastAxisMax.hostMax_apply (val_main_v5 (F := Ideal) x0 x1 x3 x4) reducesTo_S16x1024x1024_S16x1024_d2
    (by decide) h_S_ b t).trans ?_
  exact congrArg (fun f => (Finset.univ : Finset (Fin 1024)).fold max ⊥ f)
    (funext fun k => logit_apply x0 x1 x3 x4 b t k)

/-- The reference's shifted exponential at (b, t, s). -/
theorem num_apply (b : Fin 16) (t s : Fin 1024) :
    val_main_v12 (F := Ideal) x0 x1 x3 x4 (ix3 b t s) = SoftRow.num (fun k => Attn.logit x0 x1 x3 x4 b t k) s := by
  rw [val_main_v12_apply, val_main_v11_apply, val_main_v10_apply, val_main_v9_apply,
    show idx_main_v9 (idx_main_v10 (ix3 b t s)) = ix2 b t from
      funext fun a => Fin.ext (by match a with | ⟨0, _⟩ => rfl | ⟨1, _⟩ => rfl),
    top_apply, logit_apply, Ideal.hostUnary_exp_def, Ideal.subf_def]
  rfl

/-- The reference's first result at (b, t, s) is the attention weight. -/
theorem score_apply (b : Fin 16) (t s : Fin 1024) :
    val_main_v16 (F := Ideal) x0 x1 x3 x4 (ix3 b t s) = Attn.score x0 x1 x3 x4 b t s := by
  rw [val_main_v16_apply, val_main_v15_apply, val_main_v14_apply, val_main_v13_apply, val_main_cst_1_apply,
    show idx_main_v14 (idx_main_v15 (ix3 b t s)) = ix2 b t from
      funext fun a => Fin.ext (by match a with | ⟨0, _⟩ => rfl | ⟨1, _⟩ => rfl),
    Ideal.hostDivf_def, Ideal.ofBits_def, SoftRow.zero_word_add, num_apply, Attn.score_def]
  refine congrArg (Ideal.div _) (Finset.sum_congr rfl fun k _ => ?_)
  refine (congrArg (val_main_v12 (F := Ideal) x0 x1 x3 x4) ?_).trans (num_apply x0 x1 x3 x4 b t k)
  funext a; apply Fin.ext
  match a with
  | ⟨0, _⟩ => rfl
  | ⟨1, _⟩ => rfl
  | ⟨2, _⟩ => rfl

/-- The reference's second result at (b, t, v) is the attended value. -/
theorem ctx_apply (b : Fin 16) (t v : Fin 1024) :
    val_main_v17 (F := Ideal) x0 x1 x2 x3 x4 (ix3 b t v) = Attn.ctx x0 x1 x2 x3 x4 b t v := by
  rw [val_main_v17_apply, Attn.ctx_def]
  refine Finset.sum_congr rfl fun s _ => congrArg₂ (· * ·) ?_ (congrArg x2 ?_)
  · refine (congrArg (val_main_v16 (F := Ideal) x0 x1 x3 x4) ?_).trans (score_apply x0 x1 x3 x4 b t s)
    funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The first result array is the array of attention weights. -/
theorem score_eq : val_main_v16 (F := Ideal) x0 x1 x3 x4 = Attn.scoreArr x0 x1 x3 x4 := by
  funext i
  obtain ⟨b, t, s, rfl⟩ : ∃ (b : Fin 16) (t s : Fin 1024), i = ix3 b t s := ⟨i 0, i 1, i 2, eq_ix3 i⟩
  exact score_apply x0 x1 x3 x4 b t s

/-- The second result array is the array of attended values. -/
theorem ctx_eq : val_main_v17 (F := Ideal) x0 x1 x2 x3 x4 = Attn.ctxArr x0 x1 x2 x3 x4 := by
  funext i
  obtain ⟨b, t, v, rfl⟩ : ∃ (b : Fin 16) (t v : Fin 1024), i = ix3 b t v := ⟨i 0, i 1, i 2, eq_ix3 i⟩
  exact ctx_apply x0 x1 x2 x3 x4 b t v

end Cert.ReferenceIdeal.RefValue

end
-- ==== Proof.lean ====
/-
  The kernel computes dense attention: per batch b and query position t the query row is projected by W, scored
  against every key of the batch, masked, normalised by a softmax over the key positions, and the weights are applied
  to the batch's values. The kernel does this block by block (512 query positions of one batch per grid point, on
  operands rounded to bf16); the reference by whole-array contractions in f32.

  On the extended reals a change of float format is the identity and a contraction is its exact sum, so both programs
  compute, entry by entry,
      score(b, t, s) = exp(l_s − max_k l_k) / Σ_k exp(l_k − max_k l_k),   l_s = Σ_d (Σ_q Q(t,b,q)·W(d,q))·K(b,s,d) + M(b,s),
      ctx(b, t, v)   = Σ_s score(b, t, s) · V(b, s, v),
  the same expressions of the same entries (Proof/Spec.lean). The two differ only where the reference writes W's entry
  first in a product (commutativity) and takes the larger of −∞ and the row maximum (−∞ is the bottom element); neither
  needs a finite entry, so the precondition is not used. Proof/KernelBlocks.lean reads the kernel's two result arrays
  off its run, Proof/RefValue.lean the reference's; here the claims are assembled.
-/
import proofs.«164714_j43679817400719_2_alg».proof.Defs
import proofs.«164714_j43679817400719_2_alg».proof.Proof.Gen.Kernel
import proofs.«164714_j43679817400719_2_alg».proof.Proof.Gen.Kernel.Skeleton
import proofs.«164714_j43679817400719_2_alg».proof.Proof.Gen.Kernel.Launch
import proofs.«164714_j43679817400719_2_alg».proof.Proof.Gen.Kernel.Points
import proofs.«164714_j43679817400719_2_alg».proof.Proof.Gen.Kernel.Frame
import proofs.«164714_j43679817400719_2_alg».proof.Proof.Gen.KernelIdeal
import proofs.«164714_j43679817400719_2_alg».proof.Proof.Gen.KernelIdeal.Skeleton
import proofs.«164714_j43679817400719_2_alg».proof.Proof.Gen.KernelIdeal.Launch
import proofs.«164714_j43679817400719_2_alg».proof.Proof.Gen.KernelIdeal.Points
import proofs.«164714_j43679817400719_2_alg».proof.Proof.Gen.KernelIdeal.Frame
import proofs.«164714_j43679817400719_2_alg».proof.Proof.Gen.ReferenceIdeal
import proofs.«164714_j43679817400719_2_alg».proof.Proof.Gen.Pre_finite_inputs
import proofs.«164714_j43679817400719_2_alg».proof.Proof.Gen.KernelIdeal.Value
import proofs.«164714_j43679817400719_2_alg».proof.Proof.Gen.ReferenceIdeal.Run
import proofs.«164714_j43679817400719_2_alg».proof.Proof.Gen.ReferenceIdeal.Read
import proofs.«164714_j43679817400719_2_alg».proof.Proof.KernelBlocks
import proofs.«164714_j43679817400719_2_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as launched: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no operation was rewritten. -/
theorem preserves : Cert.preserves_Kernel_KernelIdeal := trivial

/-- From arguments that agree, the kernel's result arrays end at the attention weights and the attended values of
    its arguments (Blocks.run), and so do the reference's (RefValue.score_eq, RefValue.ctx_eq). -/
theorem algebraic : Cert.algebraic_KernelIdeal_ReferenceIdeal := by
  intro m ρ m' ρ' _ hagree
  refine ⟨fun c => Cert.KernelIdeal.Blocks.scoreOut m c, fun c => Cert.KernelIdeal.Blocks.ctxOut m c,
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2⟩
  · rw [Cert.ReferenceIdeal.Read.val_main_v16_eq, Cert.ReferenceIdeal.RefValue.score_eq, a0, a1, a3, a4]
  · rw [Cert.ReferenceIdeal.Read.val_main_v17_eq, Cert.ReferenceIdeal.RefValue.ctx_eq, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
